-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x1024 .f32) (main_arg1 : FVec F S4096x4096 .f32) (main_arg2 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x1024 : Shape := ⟨2, ![4096, 1024]⟩
abbrev S4096x4096 : Shape := ⟨2, ![4096, 4096]⟩
abbrev S512x4096 : Shape := ⟨2, ![512, 4096]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S4096x1024, .bf16⟩
  | .hbm, ⟨4, _⟩ => ⟨S4096x1024, .bf16⟩
  | .hbm, ⟨5, _⟩ => ⟨S4096x1024, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x4096, .f32⟩
  | .local _ .vmem, ⟨6, _⟩ => ⟨S512x4096, .f32⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .f32 = 32 ∨ (Rect.block (s := S4096x1024) S512x1024.size (cc1_transform_2 i) (hinb1_2 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x4096_S4096x1024_S4096x1024_1_0_0_1_n_n_wf : DotDims.WF S4096x4096 S4096x1024 S4096x1024 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Product.lean ====
/-
  The mathematics of the layer, with no program in sight: over the extended reals, the product of a 4096 × 4096
  matrix with a 4096 × 1024 matrix, entry by entry, and the layer itself — the source incidence matrix times
  (the target incidence matrix times the embeddings). Both programs compute exactly this expression, sum for sum,
  so no law of arithmetic beyond re-indexing a finite sum is needed, and none that could fail at an infinity.
-/
import Idealize.ShloMosaic.PureOps.Ideal
import Idealize.ShloMosaic.Lib.ValueIdx

noncomputable section

open scoped BigOperators

namespace Cert.HyperConv

open Idealize.ShloMosaic Idealize.ShloMosaic.ValueIdx

/-- Entry (p, q) of the product A · B: the sum over k of A(p, k) · B(k, q). -/
def entry (A : (⟨2, ![4096, 4096]⟩ : Shape).Idx → EReal) (B : (⟨2, ![4096, 1024]⟩ : Shape).Idx → EReal)
    (p : Fin 4096) (q : Fin 1024) : EReal :=
  ∑ k : Fin 4096, A (ix2 p k) * B (ix2 k q)

/-- The product A · B as an array over [4096, 1024]. -/
def prod (A : (⟨2, ![4096, 4096]⟩ : Shape).Idx → EReal) (B : (⟨2, ![4096, 1024]⟩ : Shape).Idx → EReal) :
    (⟨2, ![4096, 1024]⟩ : Shape).Idx → EReal :=
  fun i => entry A B ⟨(i 0).val, (i 0).isLt⟩ ⟨(i 1).val, (i 1).isLt⟩

/-- At an index given by its coordinates the product is the entry. -/
theorem prod_apply (A : (⟨2, ![4096, 4096]⟩ : Shape).Idx → EReal) (B : (⟨2, ![4096, 1024]⟩ : Shape).Idx → EReal)
    (p : Fin 4096) (q : Fin 1024) : prod A B (ix2 p q) = entry A B p q := rfl

/-- The layer: messages gathered along the target incidences, then along the source incidences —
    src · (tar · embs). -/
def layer (embs : (⟨2, ![4096, 1024]⟩ : Shape).Idx → EReal) (src tar : (⟨2, ![4096, 4096]⟩ : Shape).Idx → EReal) :
    (⟨2, ![4096, 1024]⟩ : Shape).Idx → EReal :=
  prod src (prod tar embs)

end Cert.HyperConv

end
-- ==== Proof.BlockProduct.lean ====
/-
  What one grid point computes. Each of the two kernel bodies loads a block of 512 rows of a 4096-column matrix and
  the whole resident 4096 × 1024 matrix, and stores their product accumulated into zero (the first body also changes
  the float format of the result, which is the identity on extended reals). Read at entry (p, q) of the 512 × 1024
  block that is the sum over k of block(p, k) · resident(k, q): the contraction index of the product has one axis,
  of extent 4096, and the sum is re-indexed through that one coordinate.
-/
import proofs.«100690_g20358144983740_cont_8to1_1617_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.HyperConv

open Idealize.ShloMosaic Idealize.ShloMosaic.ValueIdx Cert.KernelIdeal Cert.KernelIdeal.Gen

/-- The dimension numbers of the bodies' product: rows of the left operand against columns of the right. -/
abbrev dims : DotDims S512x4096 S4096x1024 S512x1024 := dot_S512x4096_S4096x1024_S512x1024_1_0_0_1_n_n

/-- The left operand is read at the result's row … -/
theorem lhs_row (i : S512x1024.Idx) (c : dims.contr.Idx) : (dims.lhsIdx i c 0).val = (i 0).val := by
  unfold DotDims.lhsIdx
  rw [dif_neg (show ¬(0 : Fin S512x4096.rank) ∈ dims.lhsBatch by decide), dif_pos (show (0 : Fin S512x4096.rank) ∈ dims.lhsNonContracting by decide)]
  rfl
/-- … and at the contraction coordinate; -/
theorem lhs_col (i : S512x1024.Idx) (c : dims.contr.Idx) : (dims.lhsIdx i c 1).val = (c ⟨0, by decide⟩).val :=
  dims.lhsIdx_val_of_single rfl i c
/-- the right operand at the contraction coordinate … -/
theorem rhs_row (i : S512x1024.Idx) (c : dims.contr.Idx) : (dims.rhsIdx i c 0).val = (c ⟨0, by decide⟩).val :=
  dims.rhsIdx_val_of_single rfl i c
/-- … and at the result's column. -/
theorem rhs_col (i : S512x1024.Idx) (c : dims.contr.Idx) : (dims.rhsIdx i c 1).val = (i 1).val := by
  unfold DotDims.rhsIdx
  rw [dif_neg (show ¬(1 : Fin S4096x1024.rank) ∈ dims.rhsBatch by decide), dif_pos (show (1 : Fin S4096x1024.rank) ∈ dims.rhsNonContracting by decide)]
  rfl

/-- The product of a 512 × 4096 block with a 4096 × 1024 matrix, accumulated into zero, at entry (p, q):
    the sum over k of block(p, k) · matrix(k, q). -/
theorem blockDot_apply {φ : FTy} (x0 : FVec Ideal S512x4096 .f32) (x1 : FVec Ideal S4096x1024 φ) (p : Fin 512) (q : Fin 1024) :
    matmul dims none x0 x1 (constant (F := Ideal) S512x1024 .f32 0x00000000#32) (ix2 p q)
      = ∑ k : Fin 4096, x0 (ix2 p k) * x1 (ix2 k q) := by
  show FloatOps.matmul dims none x0 x1 (constant S512x1024 .f32 0x00000000#32) (ix2 p q) = _
  rw [Ideal.matmul_constant_zero_apply, ← Equiv.sum_comp (contrEquiv1 dims 4096 rfl rfl).symm]
  refine Finset.sum_congr rfl fun k _ => ?_
  have hk := contrEquiv1_symm_val dims 4096 rfl rfl k
  have el : dims.lhsIdx (ix2 p q) ((contrEquiv1 dims 4096 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 4096 rfl rfl).symm k) = ix2 k q := funext fun a => Fin.ext (by
    match a with
    | ⟨0, _⟩ => exact (rhs_row _ _).trans hk
    | ⟨1, _⟩ => exact rhs_col _ _)
  rw [el, er]

/-- The first body's stored value at entry (p, q): the change of format is the identity, the cast of the resident
    matrix to its own shape likewise. -/
theorem body0_apply (x0 : Vec Ideal S512x4096 .f32) (x1 : Vec Ideal S4096x1024 .bf16) (p : Fin 512) (q : Fin 1024) :
    k0_pay1 (F := Ideal) x0 x1 (ix2 p q) = ∑ k : Fin 4096, x0 (ix2 p k) * x1 (ix2 k q) := by
  unfold k0_pay1
  rw [shapeCast_self]
  exact blockDot_apply (φ := .bf16) x0 x1 p q

/-- The second body's stored value at entry (p, q). -/
theorem body1_apply (x0 : Vec Ideal S512x4096 .f32) (x1 : Vec Ideal S4096x1024 .bf16) (p : Fin 512) (q : Fin 1024) :
    k1_pay1 (F := Ideal) x0 x1 (ix2 p q) = ∑ k : Fin 4096, x0 (ix2 p k) * x1 (ix2 k q) := by
  unfold k1_pay1
  rw [shapeCast_self]
  exact blockDot_apply (φ := .bf16) x0 x1 p q

end Cert.HyperConv

end
-- ==== Proof.TargetRows.lean ====
/-
  The first pallas_call, read as one array. Its grid has 8 points; point t takes rows 512·t … 512·t + 511 of the
  target incidence matrix and the whole (format-changed) embedding matrix, and writes back rows 512·t … 512·t + 511
  of the message array. Block t of the output is therefore block t of ONE whole-array function — the product of the
  two arrays the call is entered with — and the 8 blocks tile the 4096 rows, so after the call the message array IS
  that product. Stated for any contents `V` the call may be entered with.
-/
import proofs.«100690_g20358144983740_cont_8to1_1617_3_alg».proof.Proof.Gen.KernelIdeal.Frame
import proofs.«100690_g20358144983740_cont_8to1_1617_3_alg».proof.Proof.Product
import proofs.«100690_g20358144983740_cont_8to1_1617_3_alg».proof.Proof.BlockProduct

set_option maxRecDepth 16384

noncomputable section

open scoped BigOperators

namespace Cert.HyperConv

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The bodies load and store whole blocks: every access starts at the block's origin. -/
theorem origin : (![0, 0] : Fin 2 → Nat) = fun _ => 0 := funext fun a => by fin_cases a <;> rfl

/-- The first call's index maps over its 8 points: the left operand's row block is the output's, its column block
    is 0; the resident matrix is block (0, 0); the output's column block is 0 and its row block at most 7. -/
theorem tar_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every one of the 8 row blocks is some point's. -/
theorem tar_onto : ∀ r : Fin 8, ∃ t : Fin cfg0.N, win0_2.index t = ![r.val, 0] :=
  (by decide +kernel : ∀ r : Fin 8, ∃ t : Fin grid0.N, win0_2.index t = ![r.val, 0])

/-- What point `t` writes back is block `t` of the product of the two arrays the call is entered with. -/
theorem tar_flushed (c : Dev nD) (t : Fin cfg0.N) :
    (dat0 V c).flushed 2 t = ((cfg0.win 2).blk t).view.read (Elt Ideal) (prod (V c main_arg2) (V c main_v0)) := by
  show (cfg0.win 2).cut (grid0.coords t) ((dat0 V c).after 2 t) = _
  rw [after0_2]
  unfold out0_2
  rw [View.canon_unit_zero origin]
  simp only [View.ld_unit_zero (S := S512x4096) origin, View.ld_unit_zero (S := S4096x1024) origin]
  obtain ⟨e0, e1, e2, e3, e4, e5⟩ := tar_maps t
  funext j
  obtain ⟨p, q, rfl⟩ : ∃ (p : Fin 512) (q : Fin 1024), j = ix2 p q := ⟨j 0, j 1, eq_ix2 j⟩
  show k0_pay1 (iblk0 V c 0 t) (iblk0 V c 1 t) (ix2 p q)
    = prod (V c main_arg2) (V c main_v0) (((cfg0.win 2).blk t).view.emb (ix2 p q))
  refine (body0_apply _ _ p q).trans ?_
  unfold prod entry
  refine Finset.sum_congr rfl fun k _ => ?_
  have hp : p.val < 512 := p.isLt
  have hl : iblk0 V c 0 t (ix2 p k)
      = V c main_arg2 (ix2 ⟨((((cfg0.win 2).blk t).view.emb (ix2 p q)) 0).val, ((((cfg0.win 2).blk t).view.emb (ix2 p q)) 0).isLt⟩ k) := by
    show V c main_arg2 (((cfg0.win 0).blk t).view.emb (ix2 p k)) = _
    refine congrArg _ (funext fun a => Fin.ext ?_)
    match a with
    | ⟨0, _⟩ =>
      show win0_0.index t (0 : Fin 2) * 512 + 1 * p.val = win0_2.index t (0 : Fin 2) * 512 + 1 * p.val
      omega
    | ⟨1, _⟩ =>
      show win0_0.index t (1 : Fin 2) * 4096 + 1 * k.val = k.val
      omega
  have hr : iblk0 V c 1 t (ix2 k q)
      = V c main_v0 (ix2 k ⟨((((cfg0.win 2).blk t).view.emb (ix2 p q)) 1).val, ((((cfg0.win 2).blk t).view.emb (ix2 p q)) 1).isLt⟩) := by
    show V c main_v0 (((cfg0.win 1).blk t).view.emb (ix2 k q)) = _
    refine congrArg _ (funext fun a => Fin.ext ?_)
    match a with
    | ⟨0, _⟩ =>
      show win0_1.index t (0 : Fin 2) * 4096 + 1 * k.val = k.val
      omega
    | ⟨1, _⟩ =>
      show win0_1.index t (1 : Fin 2) * 1024 + 1 * q.val = win0_2.index t (1 : Fin 2) * 1024 + 1 * q.val
      omega
  rw [hl, hr]

/-- An index of the message array lies in point `t`'s block exactly when each coordinate lies in the block's range
    on its axis. -/
theorem tar_mem (t : Fin cfg0.N) (i : S4096x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- Row `r` of the message array lies in row block `r / 512`, and some point writes that block back: the 8 blocks
    tile the array. -/
theorem tar_cover (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ := tar_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [tar_mem]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- After the first call the message array is the product of the target incidence matrix with the embeddings, as
    the call found them. -/
theorem tar_rows (c : Dev nD) :
    (dat0 V c).arrAt 2 cfg0.N = prod (V c main_arg2) (V c main_v0) :=
  (dat0 V c).arrAt_eq_of_cover 2 (prod (V c main_arg2) (V c main_v0)) (fun t _ => tar_flushed V c t) tar_cover

end Cert.HyperConv

end
-- ==== Proof.SourceRows.lean ====
/-
  The second pallas_call, read as one array. Its grid again has 8 points; point t takes rows 512·t … 512·t + 511 of
  the source incidence matrix and the whole message array the first call left, and writes back rows
  512·t … 512·t + 511 of the result. As for the first call, block t of the output is block t of the product of the two
  arrays the call is entered with, and the 8 blocks tile the 4096 rows: after the call the result array IS that product.
  Stated for any contents `V` the call may be entered with.
-/
import proofs.«100690_g20358144983740_cont_8to1_1617_3_alg».proof.Proof.Gen.KernelIdeal.Frame
import proofs.«100690_g20358144983740_cont_8to1_1617_3_alg».proof.Proof.Product
import proofs.«100690_g20358144983740_cont_8to1_1617_3_alg».proof.Proof.BlockProduct
import proofs.«100690_g20358144983740_cont_8to1_1617_3_alg».proof.Proof.TargetRows

set_option maxRecDepth 16384

noncomputable section

open scoped BigOperators

namespace Cert.HyperConv

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The second call's index maps over its 8 points: the left operand's row block is the output's, its column block
    is 0; the resident matrix is block (0, 0); the output's column block is 0 and its row block at most 7. -/
theorem src_maps : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 7 :=
  (by decide +kernel : ∀ t : Fin grid1.N, _)

/-- Every one of the 8 row blocks is some point's. -/
theorem src_onto : ∀ r : Fin 8, ∃ t : Fin cfg1.N, win1_2.index t = ![r.val, 0] :=
  (by decide +kernel : ∀ r : Fin 8, ∃ t : Fin grid1.N, win1_2.index t = ![r.val, 0])

/-- What point `t` writes back is block `t` of the product of the two arrays the call is entered with. -/
theorem src_flushed (c : Dev nD) (t : Fin cfg1.N) :
    (dat1 V c).flushed 2 t = ((cfg1.win 2).blk t).view.read (Elt Ideal) (prod (V c main_arg1) (V c main_v1)) := by
  show (cfg1.win 2).cut (grid1.coords t) ((dat1 V c).after 2 t) = _
  rw [after1_2]
  unfold out1_2
  rw [View.canon_unit_zero origin]
  simp only [View.ld_unit_zero (S := S512x4096) origin, View.ld_unit_zero (S := S4096x1024) origin]
  obtain ⟨e0, e1, e2, e3, e4, e5⟩ := src_maps t
  funext j
  obtain ⟨p, q, rfl⟩ : ∃ (p : Fin 512) (q : Fin 1024), j = ix2 p q := ⟨j 0, j 1, eq_ix2 j⟩
  show k1_pay1 (iblk1 V c 0 t) (iblk1 V c 1 t) (ix2 p q)
    = prod (V c main_arg1) (V c main_v1) (((cfg1.win 2).blk t).view.emb (ix2 p q))
  refine (body1_apply _ _ p q).trans ?_
  unfold prod entry
  refine Finset.sum_congr rfl fun k _ => ?_
  have hp : p.val < 512 := p.isLt
  have hl : iblk1 V c 0 t (ix2 p k)
      = V c main_arg1 (ix2 ⟨((((cfg1.win 2).blk t).view.emb (ix2 p q)) 0).val, ((((cfg1.win 2).blk t).view.emb (ix2 p q)) 0).isLt⟩ k) := by
    show V c main_arg1 (((cfg1.win 0).blk t).view.emb (ix2 p k)) = _
    refine congrArg _ (funext fun a => Fin.ext ?_)
    match a with
    | ⟨0, _⟩ =>
      show win1_0.index t (0 : Fin 2) * 512 + 1 * p.val = win1_2.index t (0 : Fin 2) * 512 + 1 * p.val
      omega
    | ⟨1, _⟩ =>
      show win1_0.index t (1 : Fin 2) * 4096 + 1 * k.val = k.val
      omega
  have hr : iblk1 V c 1 t (ix2 k q)
      = V c main_v1 (ix2 k ⟨((((cfg1.win 2).blk t).view.emb (ix2 p q)) 1).val, ((((cfg1.win 2).blk t).view.emb (ix2 p q)) 1).isLt⟩) := by
    show V c main_v1 (((cfg1.win 1).blk t).view.emb (ix2 k q)) = _
    refine congrArg _ (funext fun a => Fin.ext ?_)
    match a with
    | ⟨0, _⟩ =>
      show win1_1.index t (0 : Fin 2) * 4096 + 1 * k.val = k.val
      omega
    | ⟨1, _⟩ =>
      show win1_1.index t (1 : Fin 2) * 1024 + 1 * q.val = win1_2.index t (1 : Fin 2) * 1024 + 1 * q.val
      omega
  rw [hl, hr]

/-- An index of the result array lies in point `t`'s block exactly when each coordinate lies in the block's range
    on its axis. -/
theorem src_mem (t : Fin cfg1.N) (i : S4096x1024.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v2).slice (win1_2.rect t)).set ↔ _
  rw [View.set_slice_whole, Rect.mem_set_unit]
  exact Iff.rfl

/-- Row `r` of the result array lies in row block `r / 512`, and some point writes that block back: the 8 blocks
    tile the array. -/
theorem src_cover (i : S4096x1024.Idx) :
    ∃ t : Fin cfg1.N, (cfg1.win 2).flush t = true ∧ i ∈ ((cfg1.win 2).blk t).view.set := by
  have hi0 : (i 0).val < 4096 := (i 0).isLt
  have hi1 : (i 1).val < 1024 := (i 1).isLt
  obtain ⟨t, ht⟩ := src_onto ⟨(i 0).val / 512, by omega⟩
  have q0 : win1_2.index t (0 : Fin 2) = (i 0).val / 512 := congrFun ht 0
  have q1 : win1_2.index t (1 : Fin 2) = 0 := congrFun ht 1
  refine ⟨t, flush1_2 t, ?_⟩
  rw [src_mem]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 1024 ≤ (i 1).val ∧ (i 1).val < win1_2.index t (1 : Fin 2) * 1024 + 1024
    omega

/-- After the second call the result array is the product of the source incidence matrix with the message array,
    as the call found them. -/
theorem src_rows (c : Dev nD) :
    (dat1 V c).arrAt 2 cfg1.N = prod (V c main_arg1) (V c main_v1) :=
  (dat1 V c).arrAt_eq_of_cover 2 (prod (V c main_arg1) (V c main_v1)) (fun t _ => src_flushed V c t) src_cover

end Cert.HyperConv

end
-- ==== Proof.Boundaries.lean ====
/-
  The arrays between the program's three stretches. Before the first call the host changes the embeddings' float
  format — the identity on extended reals — and touches nothing else, so the first call is entered with the target
  incidence matrix and the embeddings as launched, and leaves the message array at their product. The second call
  is entered with the source incidence matrix as launched (neither the host nor the first call writes it) and that
  message array, and leaves the result array at their product: the layer of the launch arrays.
-/
import proofs.«100690_g20358144983740_cont_8to1_1617_3_alg».proof.Proof.Gen.KernelIdeal.Frame
import proofs.«100690_g20358144983740_cont_8to1_1617_3_alg».proof.Proof.TargetRows
import proofs.«100690_g20358144983740_cont_8to1_1617_3_alg».proof.Proof.SourceRows
import Idealize.ShloMosaic.Lib.StableHlo.Run

set_option maxRecDepth 16384

noncomputable section

namespace Cert.HyperConv

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- Entering the first call, the format-changed embeddings are the embeddings as launched. -/
theorem entry_embs (c : Dev nD) :
    (V1 m ρ c main_v0 : S4096x1024.Idx → EReal) = m ((c : Thread nD τ).loc main_arg0) := by
  dsimp only [V1, W1, hostOps0]
  after_results
  rfl

/-- Entering the first call, the target incidence matrix is as launched. -/
theorem entry_tar (c : Dev nD) : V1 m ρ c main_arg2 = m ((c : Thread nD τ).loc main_arg2) :=
  calc V1 m ρ c main_arg2
    _ = W2 m ρ c (Proc.devRef .tc main_arg2) :=
        ((W2_arr m ρ c 0).trans (((dat0 (V1 m ρ) c).arrAt_in 0 rfl _).trans (A_eq0 (V1 m ρ) c 0))).symm
    _ = W3 m ρ c (Proc.devRef .tc main_arg2) := (W3_of_ne m ρ c main_arg2 (by decide)).symm
    _ = m ((c : Thread nD τ).loc main_arg2) := W3_main_arg2 m ρ c

/-- Entering the second call, the source incidence matrix is as launched. -/
theorem mid_src (c : Dev nD) : V2 m ρ c main_arg1 = m ((c : Thread nD τ).loc main_arg1) :=
  calc V2 m ρ c main_arg1
    _ = W3 m ρ c (Proc.devRef .tc main_arg1) :=
        ((W3_arr m ρ c 0).trans (((dat1 (V2 m ρ) c).arrAt_in 0 rfl _).trans (A_eq1 (V2 m ρ) c 0))).symm
    _ = m ((c : Thread nD τ).loc main_arg1) := W3_main_arg1 m ρ c

/-- Entering the second call, the message array is the target incidence matrix times the embeddings. -/
theorem mid_messages (c : Dev nD) :
    V2 m ρ c main_v1 = prod (m ((c : Thread nD τ).loc main_arg2)) (m ((c : Thread nD τ).loc main_arg0)) :=
  calc V2 m ρ c main_v1
    _ = (dat0 (V1 m ρ) c).arrAt 2 cfg0.N := W2_arr m ρ c 2
    _ = prod (V1 m ρ c main_arg2) (V1 m ρ c main_v0) := tar_rows (V1 m ρ) c
    _ = prod (m ((c : Thread nD τ).loc main_arg2)) (m ((c : Thread nD τ).loc main_arg0)) :=
        congrArg₂ prod (entry_tar m ρ c) (entry_embs m ρ c)

/-- After the second call the result array is the layer of the launch arrays. -/
theorem result_array (c : Dev nD) :
    W3 m ρ c (Proc.devRef .tc main_v2)
      = layer (m ((c : Thread nD τ).loc main_arg0)) (m ((c : Thread nD τ).loc main_arg1)) (m ((c : Thread nD τ).loc main_arg2)) :=
  calc W3 m ρ c (Proc.devRef .tc main_v2)
    _ = (dat1 (V2 m ρ) c).arrAt 2 cfg1.N := W3_arr m ρ c 2
    _ = prod (V2 m ρ c main_arg1) (V2 m ρ c main_v1) := src_rows (V2 m ρ) c
    _ = layer (m ((c : Thread nD τ).loc main_arg0)) (m ((c : Thread nD τ).loc main_arg1)) (m ((c : Thread nD τ).loc main_arg2)) :=
        congrArg₂ prod (mid_src m ρ c) (mid_messages m ρ c)

end Cert.HyperConv

end
-- ==== Proof.KernelRun.lean ====
/-
  The kernel program's run with its result named. Every weakly fair execution of the idealized kernel program
  terminates without a fault; the final memory holds, at every buffer that outlives the calls, what the last stretch
  left there. Read at the three argument arrays that is the launch memory; read at the result array it is what the
  second call left: the layer of the launch arrays.
-/
import proofs.«100690_g20358144983740_cont_8to1_1617_3_alg».proof.Proof.Gen.KernelIdeal.Frame
import proofs.«100690_g20358144983740_cont_8to1_1617_3_alg».proof.Proof.Boundaries

set_option maxRecDepth 16384

noncomputable section

namespace Cert.HyperConv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The idealized kernel program runs to the layer of its arguments, the arguments unchanged. -/
theorem kernel_run : θ_run defs (onTc (τ := τ) (main (F := Ideal))) ⟨m, fun _ => 0, ρ⟩ (fun r => ∀ c : Dev nD,
      r.2.mem ((c.tc : Thread nD τ).loc main_v2)
        = layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (result_array m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.HyperConv

end
-- ==== Proof.ReferenceLayer.lean ====
/-
  The reference, read as the layer. Its two matrix products are, entry by entry, sums over the one contracted
  coordinate: entry (p, q) of the first is the sum over l of tar(p, l) · embs(l, q), entry (p, q) of the second the sum
  over k of src(p, k) · first(k, q). That is the layer's own expression, sum for sum; only the way an index is spelt
  from its two coordinates differs, and the two spellings agree coordinate by coordinate.
-/
import proofs.«100690_g20358144983740_cont_8to1_1617_3_alg».proof.Proof.Gen.ReferenceIdeal.Read
import proofs.«100690_g20358144983740_cont_8to1_1617_3_alg».proof.Proof.Product

noncomputable section

open scoped BigOperators

namespace Cert.HyperConv.Reference

open Idealize.ShloMosaic Idealize.ShloMosaic.ValueIdx Cert.ReferenceIdeal Cert.ReferenceIdeal.Read Cert.HyperConv

/-- The first product reads its left operand at (row of the entry, l) … -/
theorem first_left (j : S4096x1024.Idx) (l : Fin 4096) :
    lidx_main_v0 j l = ix2 (⟨(j 0).val, (j 0).isLt⟩ : Fin 4096) l :=
  funext fun a => Fin.ext (by match a with | ⟨0, _⟩ => rfl | ⟨1, _⟩ => rfl)
/-- … and its right operand at (l, column of the entry). -/
theorem first_right (j : S4096x1024.Idx) (l : Fin 4096) :
    ridx_main_v0 j l = ix2 l (⟨(j 1).val, (j 1).isLt⟩ : Fin 1024) :=
  funext fun a => Fin.ext (by match a with | ⟨0, _⟩ => rfl | ⟨1, _⟩ => rfl)
/-- The second product reads its left operand at (row of the entry, k) … -/
theorem second_left (i : S4096x1024.Idx) (k : Fin 4096) :
    lidx_main_v1 i k = ix2 (⟨(i 0).val, (i 0).isLt⟩ : Fin 4096) k :=
  funext fun a => Fin.ext (by match a with | ⟨0, _⟩ => rfl | ⟨1, _⟩ => rfl)
/-- … and its right operand at (k, column of the entry). -/
theorem second_right (i : S4096x1024.Idx) (k : Fin 4096) :
    ridx_main_v1 i k = ix2 k (⟨(i 1).val, (i 1).isLt⟩ : Fin 1024) :=
  funext fun a => Fin.ext (by match a with | ⟨0, _⟩ => rfl | ⟨1, _⟩ => rfl)

/-- The reference's first stage is the product of the target incidence matrix with the embeddings. -/
theorem messages_eq (embs : (⟨S4096x1024, .f32⟩ : BufTy).Contents (Elt Ideal)) (tar : (⟨S4096x4096, .f32⟩ : BufTy).Contents (Elt Ideal)) :
    val_main_v0 (F := Ideal) embs tar = prod tar embs := by
  funext j
  rw [val_main_v0_apply]
  unfold prod entry
  refine Finset.sum_congr rfl fun l _ => ?_
  rw [first_left, first_right]

/-- The reference's result is the layer: the source incidence matrix times that first stage. -/
theorem result_eq (embs : (⟨S4096x1024, .f32⟩ : BufTy).Contents (Elt Ideal)) (src tar : (⟨S4096x4096, .f32⟩ : BufTy).Contents (Elt Ideal)) :
    val_main_v1 (F := Ideal) embs src tar = layer embs src tar := by
  funext i
  rw [val_main_v1_apply, messages_eq]
  show (∑ k : Fin 4096, src (lidx_main_v1 i k) * prod tar embs (ridx_main_v1 i k))
    = ∑ k : Fin 4096, src (ix2 (⟨(i 0).val, (i 0).isLt⟩ : Fin 4096) k) * prod tar embs (ix2 k (⟨(i 1).val, (i 1).isLt⟩ : Fin 1024))
  refine Finset.sum_congr rfl fun k _ => ?_
  rw [second_left, second_right]

end Cert.HyperConv.Reference

end
-- ==== Proof.lean ====
/-
  A directed hypergraph convolution layer: out = src · (tar · embs), the embeddings (4096 × 1024) multiplied by the
  4096 × 4096 target incidence matrix and the result by the 4096 × 4096 source incidence matrix.
  The kernel program changes the embeddings' float format on the host, then makes two calls, each tiling the 4096
  output rows into 8 blocks of 512: the first multiplies a row block of the target matrix by the whole embedding
  matrix, the second a row block of the source matrix by the whole message array the first call left; the first
  call's result changes float format once more. On extended reals a change of float format is the identity, and a
  block product accumulated into zero is the plain sum over the contracted coordinate, so entry (p, q) of the
  kernel's result is the sum over k of src(p, k) · (the sum over l of tar(k, l) · embs(l, q)). The reference's two
  matrix products give the same expression, sum for sum: no law of arithmetic is used beyond re-indexing a finite sum,
  so nothing here depends on the inputs being finite. The ideal pass rewrote no operation, so the kernel's
  idealization is its own text read on extended reals.
-/
import proofs.«100690_g20358144983740_cont_8to1_1617_3_alg».proof.Defs
import proofs.«100690_g20358144983740_cont_8to1_1617_3_alg».proof.Proof.Gen.Kernel
import proofs.«100690_g20358144983740_cont_8to1_1617_3_alg».proof.Proof.Gen.Kernel.Skeleton
import proofs.«100690_g20358144983740_cont_8to1_1617_3_alg».proof.Proof.Gen.Kernel.Launch
import proofs.«100690_g20358144983740_cont_8to1_1617_3_alg».proof.Proof.Gen.Kernel.Points
import proofs.«100690_g20358144983740_cont_8to1_1617_3_alg».proof.Proof.Gen.Kernel.Frame
import proofs.«100690_g20358144983740_cont_8to1_1617_3_alg».proof.Proof.Gen.KernelIdeal
import proofs.«100690_g20358144983740_cont_8to1_1617_3_alg».proof.Proof.Gen.KernelIdeal.Skeleton
import proofs.«100690_g20358144983740_cont_8to1_1617_3_alg».proof.Proof.Gen.KernelIdeal.Launch
import proofs.«100690_g20358144983740_cont_8to1_1617_3_alg».proof.Proof.Gen.KernelIdeal.Points
import proofs.«100690_g20358144983740_cont_8to1_1617_3_alg».proof.Proof.Gen.KernelIdeal.Frame
import proofs.«100690_g20358144983740_cont_8to1_1617_3_alg».proof.Proof.Gen.ReferenceIdeal
import proofs.«100690_g20358144983740_cont_8to1_1617_3_alg».proof.Proof.Gen.Pre_finite_inputs
import proofs.«100690_g20358144983740_cont_8to1_1617_3_alg».proof.Proof.Gen.ReferenceIdeal.Run
import proofs.«100690_g20358144983740_cont_8to1_1617_3_alg».proof.Proof.Gen.ReferenceIdeal.Read
import Idealize.ShloMosaic.Adequacy
import Idealize.ShloMosaic.Init
import proofs.«100690_g20358144983740_cont_8to1_1617_3_alg».proof.Proof.KernelRun
import proofs.«100690_g20358144983740_cont_8to1_1617_3_alg».proof.Proof.ReferenceLayer

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does the kernel program read on extended reals. -/
theorem frame_kernel_ideal : Cert.frame_KernelIdeal := fun m ρ _ => Cert.KernelIdeal.Gen.frame m ρ

/-- So does the reference: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten: there is nothing to preserve. -/
theorem preserves : Cert.preserves_Kernel_KernelIdeal := trivial

/-- From memories agreeing on the three arguments, both programs end with the result array at the layer of the
    arguments: the kernel by its run, the reference by its two products read as sums. -/
theorem algebraic : Cert.algebraic_KernelIdeal_ReferenceIdeal := by
  intro m ρ m' ρ' _ hagree
  refine ⟨fun c => Cert.HyperConv.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.HyperConv.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.HyperConv.Reference.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
